-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 53
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S8192x4096, .bf16⟩
  | .hbm, ⟨51, _⟩ => ⟨S4096x4096, .bf16⟩
  | .hbm, ⟨52, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_cst_4 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_cst_8 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v18 : Ref sig .tc := ⟨.hbm, 40, rfl⟩
abbrev main_cst_9 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_10 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  reducesTo_S8192x4096_S_d0_1 : S8192x4096.ReducesTo [0, 1] S_
  h_S_ : 0 < S_.numel
  reducesTo_S4096x4096_S_d0_1 : S4096x4096.ReducesTo [0, 1] S_
  bcast_S_S8192x4096 : S_.BroadcastsInDim S8192x4096 (![] : Fin 0 → Fin S8192x4096.rank)
  bcast_S_S4096x4096 : S_.BroadcastsInDim S4096x4096 (![] : Fin 0 → Fin S4096x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v26) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S8192x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_cst_8 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v20 : Ref sig .tc := ⟨.hbm, 42, rfl⟩
abbrev main_cst_9 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_10 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_11 : Ref sig .tc := ⟨.hbm, 55, rfl⟩
abbrev main_cst_12 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S8192x4096 : S_.BroadcastsInDim S8192x4096 (![] : Fin 0 → Fin S8192x4096.rank)
  reducesTo_S4096x4096_S_d0_1 : S4096x4096.ReducesTo [0, 1] S_
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each of the body's three control cases leaves behind, as the body's own stored values.

  The body runs in one of three ways, by its position k on the contracted grid axis: first (k = 0: the accumulator is
  reset, then one block product is added), middle (one block product is added), last (k = 7: one block product is
  added, and the clamped accumulator is stored to the output block). The generated run of each case found the list of
  stores into the accumulator and into the output block; every store covers its whole buffer, so what a buffer ends
  holding is the value of the last store into it, with every load of the accumulator reading what the store before left.
  In symbols, with `step x w acc` the accumulator after adding the product of the blocks x, w to acc:

      first:   accumulator = step x w 0
      middle:  accumulator = step x w acc
      last:    accumulator = step x w acc,   output block = clamp (step x w acc)

  These hold for every float instance.
-/
import proofs.«109858_j17927193493941_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- MIDDLE: the accumulator ends at one step over what it held. -/
theorem acc_middle (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : ¬cond0_1 i)
    (x0 : Vec F S2048x512 .bf16) (x1 : Vec F S1024x512 .bf16) (xs0 : Vec F S2048x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S2048x512) hz, View.ld_unit_zero (S := S1024x512) hz, View.ld_unit_zero (S := S2048x1024) hz]

theorem acc_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S1024x512 .bf16) (xs0 : Vec F S2048x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S2048x512) hz, View.ld_unit_zero (S := S1024x512) hz, View.ld_unit_zero (S := S2048x1024) hz]

theorem out_last (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : ¬cond0_0 i) (hc1 : cond0_1 i)
    (x0 : Vec F S2048x512 .bf16) (x1 : Vec F S1024x512 .bf16) (xs0 : Vec F S2048x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S2048x1024) _ hz]
  simp only [View.readAt_eq_ld, harg3.read_unread, harg4.read_unread, harg6.read_unread,
    View.ld_unit_zero (S := S2048x512) hz, View.ld_unit_zero (S := S1024x512) hz, View.ld_unit_zero (S := S2048x1024) hz]

theorem acc_first (c : Dev nD) (i : grid0.Coords) (arg3 : Memref sig .tc .vmem S2048x512 .bf16) (harg3 : arg3.IsWhole) (arg4 : Memref sig .tc .vmem S1024x512 .bf16) (harg4 : arg4.IsWhole) (arg5 : Memref sig .tc .vmem S2048x1024 .f32) (harg5 : arg5.IsWhole) (arg6 : Memref sig .tc .vmem S2048x1024 .f32) (harg6 : arg6.IsWhole) (hc0 : cond0_0 i) (hc1 : ¬cond0_1 i)
    (x0 : Vec F S2048x512 .bf16) (x1 : Vec F S1024x512 .bf16) :
    sout0_A_0 c i arg3 harg3 arg4 harg4 arg5 harg5 arg6 harg6 hc0 hc1 x0 x1 = k0_pay2 x0 x1 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S2048x1024) hz, View.readCov_unit_zero (S := S2048x1024) _ hz]
  simp only [View.readAt_eq_ld, harg3.read_unread, harg4.read_unread,
    View.ld_unit_zero (S := S2048x512) hz, View.ld_unit_zero (S := S1024x512) hz]

end Cert.KernelIdeal.Pieces

end
-- ==== Proof.Spec.lean ====
/-
  The mathematics of the claim, with no program in sight.

  Both programs quantize the activations `x` (8192 × 4096) and the weights `W` (4096 × 4096) to arrays `X`, `Y` by the
  same host arithmetic, and the result is, entry by entry,

      out (b, o) = min 6 (max 0 (∑ k < 4096, X (b, k) · Y (o, k)))

  over the extended reals. Two laws join the two sides:

  * the reference forms its quantized array as `a + (q - a)` (a straight-through estimator's forward value); for a REAL
    entry `a` this is `q` whatever `q` is, the infinities included (`real_add_sub_cancel`) — for `a = ±∞` it fails, which
    is where the finiteness of the inputs is used;
  * the kernel sums the contracted axis in eight blocks of 512, one block per step of its innermost grid axis, into an
    accumulator that starts at zero; addition of extended reals is associative and commutative, so the eight partial
    sums are the one sum over 4096 (`sum_blocks`).

  Arrays are read at natural-number coordinates through `ent` (zero outside the array) so that the sums below carry no
  proofs of bounds.
-/
import Idealize.ShloMosaic.PureOps.Ideal
import Idealize.ShloMosaic.PureOps.Ideal.Laws
import Idealize.ShloMosaic.Lib.ValueIdx

noncomputable section

open scoped BigOperators

namespace Cert.FakeQuantMatmul

open Idealize.ShloMosaic Idealize.ShloMosaic.ValueIdx

/-- The shape of the activations and of the result. -/
abbrev SA : Shape := ⟨2, ![8192, 4096]⟩
/-- The shape of the weights. -/
abbrev SW : Shape := ⟨2, ![4096, 4096]⟩

/-- Entry `(r, k)` of a matrix, zero outside it. -/
def ent {n0 n1 : Nat} (X : (⟨2, ![n0, n1]⟩ : Shape).Idx → EReal) (r k : ℕ) : EReal :=
  if h : r < n0 ∧ k < n1 then X (ix2 ⟨r, h.1⟩ ⟨k, h.2⟩) else 0

theorem ent_of_lt {n0 n1 : Nat} (X : (⟨2, ![n0, n1]⟩ : Shape).Idx → EReal) (r : Fin n0) (k : Fin n1) :
    ent X r.val k.val = X (ix2 r k) := by
  unfold ent
  rw [dif_pos ⟨r.isLt, k.isLt⟩]

/-- The clamp to `[0, 6]`, the bounds as the two float words both programs print. -/
def clamp06 (v : EReal) : EReal :=
  min (Ideal.ofBits .f32 0x40C00000#32) (max (Ideal.ofBits .f32 0x00000000#32) v)

/-- Row `b` of `X` against row `o` of `Y`, over the whole contracted axis. -/
def rowDot (X : SA.Idx → EReal) (Y : SW.Idx → EReal) (b o : ℕ) : EReal :=
  ∑ k : Fin 4096, ent X b k.val * ent Y o k.val

/-- THE RESULT as one function of the two quantized arrays. -/
def result (X : SA.Idx → EReal) (Y : SW.Idx → EReal) : SA.Idx → EReal :=
  fun i => clamp06 (rowDot X Y (i 0).val (i 1).val)

/-- For a real `a`, `a + (q - a) = q` for every extended real `q`: at `q = ±∞` both sides are that infinity. -/
theorem real_add_sub_cancel (a : ℝ) (q : EReal) : (a : EReal) + (q - (a : EReal)) = q := by
  induction q using EReal.rec with
  | bot => simp
  | top => simp
  | coe r =>
    rw [← EReal.coe_sub, ← EReal.coe_add]
    exact congrArg _ (by ring)

/-- Eight consecutive blocks of 512 are the whole range of 4096: a sum over the blocks of the sums inside each block
    is the one sum (re-indexing by `(s, k) ↦ 512·s + k`; addition is associative and commutative). -/
theorem sum_blocks {β : Type*} [AddCommMonoid β] (f : ℕ → β) :
    ∑ s ∈ Finset.range 8, ∑ k : Fin 512, f (512 * s + k.val) = ∑ i : Fin 4096, f i.val := by
  rw [Finset.sum_range (fun s => ∑ k : Fin 512, f (512 * s + k.val))]
  rw [← Fintype.sum_prod_type' (fun (s : Fin 8) (k : Fin 512) => f (512 * s.val + k.val))]
  rw [← Equiv.sum_comp (finProdFinEquiv (m := 8) (n := 512)) (fun i : Fin (8 * 512) => f i.val)]
  refine Finset.sum_congr rfl (fun p _ => ?_)
  congr 1
  show 512 * p.1.val + p.2.val = p.2.val + 512 * p.1.val
  omega

end Cert.FakeQuantMatmul

end
-- ==== Proof.PayloadAt.lean ====
/-
  The kernel body's three stored values, read at one entry over the extended reals.

  The body keeps a 2048 × 1024 accumulator. At the first step of the contracted axis it stores zeros; at every step it
  adds to the accumulator the product of its 2048 × 512 block of activations with the transpose of its 1024 × 512
  block of weights (both blocks' second axis is contracted, into a zero start); at the last step it stores the
  accumulator clamped to [0, 6]. Entry (r, s) of the product is the sum over the 512 contracted positions k of
  x (r, k) · w (s, k).
-/
import proofs.«109858_j17927193493941_2_alg».proof.Proof.Gen.KernelIdeal.Skeleton
import proofs.«109858_j17927193493941_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx Cert.FakeQuantMatmul

/-- The reset value: zero at every entry. -/
theorem reset_apply (j : S2048x1024.Idx) : k0_pay1 (F := Ideal) j = 0 := by
  unfold k0_pay1
  simp only [shapeCast_self]
  show Ideal.ofBits .f32 0x00000000#32 = 0
  exact Ideal.ofBits_zero_f32

/-- The clamped store: the accumulator's entry clamped to [0, 6]. -/
theorem clamp_apply (acc : Vec Ideal S2048x1024 .f32) (j : S2048x1024.Idx) :
    k0_pay3 (F := Ideal) acc j = clamp06 (acc j) := by
  unfold k0_pay3 clamp06
  rfl

/-- The product's dimension numbers at an output entry: the left operand is read at (output row, contracted position), -/
theorem lhs_row (j : S2048x1024.Idx) (q : dot_S2048x512_S1024x512_S2048x1024_1_1_0_0_n_n.contr.Idx) : (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl
theorem lhs_contr (j : S2048x1024.Idx) (q : dot_S2048x512_S1024x512_S2048x1024_1_1_0_0_n_n.contr.Idx) : (dot_S2048x512_S1024x512_S2048x1024_1_1_0_0_n_n.lhsIdx j q 1).val = (q ⟨0, by decide⟩).val :=
  dot_S2048x512_S1024x512_S2048x1024_1_1_0_0_n_n.lhsIdx_val_of_single rfl j q
/-- and the right operand at (output column, contracted position). -/
theorem rhs_row (j : S2048x1024.Idx) (q : dot_S2048x512_S1024x512_S2048x1024_1_1_0_0_n_n.contr.Idx) : (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl
theorem rhs_contr (j : S2048x1024.Idx) (q : dot_S2048x512_S1024x512_S2048x1024_1_1_0_0_n_n.contr.Idx) : (dot_S2048x512_S1024x512_S2048x1024_1_1_0_0_n_n.rhsIdx j q 1).val = (q ⟨0, by decide⟩).val :=
  dot_S2048x512_S1024x512_S2048x1024_1_1_0_0_n_n.rhsIdx_val_of_single rfl j q

/-- One accumulation step at entry (r, s): the accumulator's entry plus the 512-term product sum. -/
theorem step_apply (x : Vec Ideal S2048x512 .bf16) (w : Vec Ideal S1024x512 .bf16) (acc : Vec Ideal S2048x1024 .f32)
    (r : Fin 2048) (s : Fin 1024) :
    k0_pay2 (F := Ideal) x w acc (ix2 r s) = acc (ix2 r s) + ∑ k : Fin 512, x (ix2 r k) * w (ix2 s k) := by
  unfold k0_pay2
  simp only [shapeCast_self]
  show (acc (ix2 r s) : EReal) + FloatOps.matmul (F := Ideal) dot_S2048x512_S1024x512_S2048x1024_1_1_0_0_n_n none x w (constant (F := Ideal) S2048x1024 .f32 0x00000000#32) (ix2 r s) = _
  rw [Ideal.matmul_constant_zero_apply,
    ← Equiv.sum_comp (contrEquiv1 dot_S2048x512_S1024x512_S2048x1024_1_1_0_0_n_n 512 rfl rfl).symm]
  refine congrArg _ (Finset.sum_congr rfl fun k _ => ?_)
  have hk := contrEquiv1_symm_val dot_S2048x512_S1024x512_S2048x1024_1_1_0_0_n_n 512 rfl rfl k
  have el : dot_S2048x512_S1024x512_S2048x1024_1_1_0_0_n_n.lhsIdx (ix2 r s)
      ((contrEquiv1 dot_S2048x512_S1024x512_S2048x1024_1_1_0_0_n_n 512 rfl rfl).symm k) = ix2 r k :=
    funext fun a => Fin.ext (by
      match a with
      | ⟨0, _⟩ => exact lhs_row _ _
      | ⟨1, _⟩ => exact (lhs_contr _ _).trans hk)
  have er : dot_S2048x512_S1024x512_S2048x1024_1_1_0_0_n_n.rhsIdx (ix2 r s)
      ((contrEquiv1 dot_S2048x512_S1024x512_S2048x1024_1_1_0_0_n_n 512 rfl rfl).symm k) = ix2 s k :=
    funext fun a => Fin.ext (by
      match a with
      | ⟨0, _⟩ => exact rhs_row _ _
      | ⟨1, _⟩ => exact (rhs_contr _ _).trans hk)
  rw [el, er]

end Cert.KernelIdeal.PayloadAt

end
-- ==== Proof.Blocks.lean ====
/-
  Where the windows' blocks sit in their arrays.

  The grid is 4 × 4 × 8; point number t has coordinates (i, j, k) = (t / 32, t / 8 mod 4, t mod 8). The activations'
  window takes block (i, k) of 2048 × 512, the weights' window block (j, k) of 1024 × 512, the result's window block
  (i, j) of 2048 × 1024. So entry (r, q) of a point's block is entry (block row · rows per block + r,
  block column · columns per block + q) of the array.
-/
import proofs.«109858_j17927193493941_2_alg».proof.Proof.Gen.KernelIdeal.Frame
import proofs.«109858_j17927193493941_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.FakeQuantMatmul

variable (m : (ℓ : Loc nD τ sig) → Buf (Elt Ideal) ℓ)

/-- The three printed index maps at point number `t`, decided over the grid's 128 points. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 32 ∧ win0_2.index t (1 : Fin 2) = t.val / 8 % 4 :=
  (by decide +kernel : ∀ t : Fin grid0.N, _)

/-- The quantized activations as the kernel's region finds them. -/
abbrev X (c : Dev nD) : SA.Idx → EReal := V m c main_v26
/-- The quantized weights as the kernel's region finds them. -/
abbrev Y (c : Dev nD) : SW.Idx → EReal := V m c main_v27

/-- Entry (r, k) of the activations' block at point `t`. -/
theorem xblock_apply (c : Dev nD) (t : Fin cfg0.N) (r : Fin 2048) (k : Fin 512) :
    (iblk m c 0 t : Vec Ideal S2048x512 .bf16) (ix2 r k)
      = ent (X m c) (2048 * (t.val / 32) + r.val) (512 * (t.val % 8) + k.val) := by
  have hN : t.val < 128 := lt_of_lt_of_eq t.isLt (show cfg0.N = 128 from N_0)
  obtain ⟨e0, e1, -, -, -, -⟩ := index_facts t
  have hb : 2048 * (t.val / 32) + r.val < 8192 ∧ 512 * (t.val % 8) + k.val < 4096 := by
    have := r.isLt; have := k.isLt; omega
  unfold ent
  rw [dif_pos hb]
  unfold iblk
  rw [View.read_apply]
  show V m c main_v26 _ = V m c main_v26 _
  congr 1
  funext a
  apply Fin.ext
  match a with
  | ⟨0, _⟩ => show win0_0.index t (0 : Fin 2) * 2048 + 1 * r.val = 2048 * (t.val / 32) + r.val; omega
  | ⟨1, _⟩ => show win0_0.index t (1 : Fin 2) * 512 + 1 * k.val = 512 * (t.val % 8) + k.val; omega

/-- Entry (s, k) of the weights' block at point `t`. -/
theorem wblock_apply (c : Dev nD) (t : Fin cfg0.N) (s : Fin 1024) (k : Fin 512) :
    (iblk m c 1 t : Vec Ideal S1024x512 .bf16) (ix2 s k)
      = ent (Y m c) (1024 * (t.val / 8 % 4) + s.val) (512 * (t.val % 8) + k.val) := by
  have hN : t.val < 128 := lt_of_lt_of_eq t.isLt (show cfg0.N = 128 from N_0)
  obtain ⟨-, -, e0, e1, -, -⟩ := index_facts t
  have hb : 1024 * (t.val / 8 % 4) + s.val < 4096 ∧ 512 * (t.val % 8) + k.val < 4096 := by
    have := s.isLt; have := k.isLt; omega
  unfold ent
  rw [dif_pos hb]
  unfold iblk
  rw [View.read_apply]
  show V m c main_v27 _ = V m c main_v27 _
  congr 1
  funext a
  apply Fin.ext
  match a with
  | ⟨0, _⟩ => show win0_1.index t (0 : Fin 2) * 1024 + 1 * s.val = 1024 * (t.val / 8 % 4) + s.val; omega
  | ⟨1, _⟩ => show win0_1.index t (1 : Fin 2) * 512 + 1 * k.val = 512 * (t.val % 8) + k.val; omega

end Cert.KernelIdeal.Blocks

end
-- ==== Proof.Accumulate.lean ====
/-
  The accumulator over one run of the contracted grid axis.

  Points 8q, 8q + 1, …, 8q + 7 share the grid's first two coordinates and step the contracted axis k = 0 … 7. The
  accumulator is reset at 8q and every point adds its own block product to it, so after point 8q + j it holds, entry by
  entry, 0 plus the sum of the block products of points 8q … 8q + j. After the last point of the run (j = 7) the eight
  blocks of 512 contracted positions are the whole contracted axis: entry (r, s) of the accumulator is the product of
  row 2048·(t / 32) + r of the quantized activations with row 1024·(t / 8 mod 4) + s of the quantized weights, summed
  over all 4096 positions.
-/
import proofs.«109858_j17927193493941_2_alg».proof.Proof.Gen.KernelIdeal.Value
import proofs.«109858_j17927193493941_2_alg».proof.Proof.Pieces
import proofs.«109858_j17927193493941_2_alg».proof.Proof.PayloadAt
import proofs.«109858_j17927193493941_2_alg».proof.Proof.Blocks
import proofs.«109858_j17927193493941_2_alg».proof.Proof.Spec

set_option maxRecDepth 16384

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.FakeQuantMatmul Cert.KernelIdeal.Blocks

variable (m : (ℓ : Loc nD τ sig) → Buf (Elt Ideal) ℓ)

/-- The product of a 2048 × 512 block with the transpose of a 1024 × 512 block, at an entry of the accumulator. -/
def blockProduct (x : Vec Ideal S2048x512 .bf16) (w : Vec Ideal S1024x512 .bf16) (j : S2048x1024.Idx) : EReal :=
  ∑ k : Fin 512, (x (ix2 (j 0) k) : EReal) * (w (ix2 (j 1) k) : EReal)

/-- Point `n`'s addend at an entry of the accumulator: the product of its two blocks there (zero past the grid, where
    nothing reads it). -/
def addend (c : Dev nD) (n : ℕ) (j : S2048x1024.Idx) : EReal :=
  if h : n < cfg0.N then blockProduct (iblk m c 0 ⟨n, h⟩) (iblk m c 1 ⟨n, h⟩) j else 0

/-- One step at any entry: the accumulator's entry plus the blocks' product there. -/
theorem step_at (x : Vec Ideal S2048x512 .bf16) (w : Vec Ideal S1024x512 .bf16) (acc : Vec Ideal S2048x1024 .f32)
    (j : S2048x1024.Idx) :
    k0_pay2 (F := Ideal) x w acc j = acc j + blockProduct x w j := by
  obtain ⟨r, s, rfl⟩ : ∃ (r : Fin 2048) (s : Fin 1024), j = ix2 r s := ⟨j 0, j 1, eq_ix2 j⟩
  exact PayloadAt.step_apply x w acc r s

/-- The first point of a run leaves zero plus its addend, whatever the accumulator held. -/
theorem first_step (c : Dev nD) (n : ℕ) (hn : n < cfg0.N) (h0 : n % 8 = 0) (acc : Vec Ideal S2048x1024 .f32)
    (j : S2048x1024.Idx) : Value.scAt0_0 m c n hn acc j = 0 + addend m c n j := by
  have h1 : ¬n % 8 = 7 := by omega
  unfold Value.scAt0_0
  rw [dif_pos h0, dif_neg h1, Pieces.acc_first, step_at, PayloadAt.reset_apply]
  unfold addend
  rw [dif_pos hn]

/-- Every later point of a run adds its addend to what the point before left. -/
theorem later_step (c : Dev nD) (n : ℕ) (hn : n < cfg0.N) (h0 : ¬n % 8 = 0) (acc : Vec Ideal S2048x1024 .f32)
    (j : S2048x1024.Idx) : Value.scAt0_0 m c n hn acc j = acc j + addend m c n j := by
  unfold Value.scAt0_0
  rw [dif_neg h0]
  by_cases h1 : n % 8 = 7
  · rw [dif_pos h1, Pieces.acc_last, step_at]
    unfold addend
    rw [dif_pos hn]
  · rw [dif_neg h1, Pieces.acc_middle, step_at]
    unfold addend
    rw [dif_pos hn]

/-- The accumulator after point `t`: zero plus the addends of the run's points up to `t`. -/
theorem acc_eq_sum (c : Dev nD) (t : Fin cfg0.N) (j : S2048x1024.Idx) :
    (outsAt0 m c t.val t.isLt).2 j = 0 + ∑ s ∈ Finset.range (t.val % 8 + 1), addend m c (8 * (t.val / 8) + s) j := by
  rw [Value.soutsAt0_0_eq m c t]
  exact Pipeline.accAt_add_apply (ι := S2048x1024.Idx) (β := EReal) _ _ (fun _ => 0) (addend m c) (8 * (t.val / 8)) 7
    (fun h i => first_step m c _ h (by omega) _ i)
    (fun n h acc i hlt hle => later_step m c n h (by omega) acc i)
    (t.val % 8) (by omega) _ j

/-- A point's addend at entry (r, s), over the two arrays. -/
theorem addend_apply (c : Dev nD) (n : ℕ) (hn : n < cfg0.N) (r : Fin 2048) (s : Fin 1024) :
    addend m c n (ix2 r s)
      = ∑ k : Fin 512, ent (X m c) (2048 * (n / 32) + r.val) (512 * (n % 8) + k.val)
          * ent (Y m c) (1024 * (n / 8 % 4) + s.val) (512 * (n % 8) + k.val) := by
  unfold addend
  rw [dif_pos hn]
  unfold blockProduct
  refine Finset.sum_congr rfl fun k _ => ?_
  exact congrArg₂ (· * ·) (xblock_apply m c ⟨n, hn⟩ r k) (wblock_apply m c ⟨n, hn⟩ s k)

/-- AFTER THE LAST POINT OF A RUN the accumulator's entry (r, s) is the full row product. -/
theorem acc_last_apply (c : Dev nD) (t : Fin cfg0.N) (h7 : t.val % 8 = 7) (r : Fin 2048) (s : Fin 1024) :
    (outsAt0 m c t.val t.isLt).2 (ix2 r s)
      = rowDot (X m c) (Y m c) (2048 * (t.val / 32) + r.val) (1024 * (t.val / 8 % 4) + s.val) := by
  have hN : t.val < 128 := lt_of_lt_of_eq t.isLt (show cfg0.N = 128 from N_0)
  rw [acc_eq_sum, h7, zero_add]
  have e : ∀ s' ∈ Finset.range 8, addend m c (8 * (t.val / 8) + s') (ix2 r s)
      = ∑ k : Fin 512, (fun p => ent (X m c) (2048 * (t.val / 32) + r.val) p * ent (Y m c) (1024 * (t.val / 8 % 4) + s.val) p) (512 * s' + k.val) := by
    intro s' hs'
    have hs := Finset.mem_range.mp hs'
    rw [addend_apply m c _ (lt_of_lt_of_eq (by omega : 8 * (t.val / 8) + s' < 128) (show cfg0.N = 128 from N_0).symm)]
    have e1 : (8 * (t.val / 8) + s') / 32 = t.val / 32 := by omega
    have e2 : (8 * (t.val / 8) + s') % 8 = s' := by omega
    have e3 : (8 * (t.val / 8) + s') / 8 % 4 = t.val / 8 % 4 := by omega
    rw [e1, e2, e3]
  rw [Finset.sum_congr rfl e]
  exact sum_blocks (fun p => ent (X m c) (2048 * (t.val / 32) + r.val) p * ent (Y m c) (1024 * (t.val / 8 % 4) + s.val) p)

end Cert.KernelIdeal.Accumulate

end
-- ==== Proof.KernelRun.lean ====
/-
  The kernel's result array after the run.

  The result's window is written back only at the last point of each run of the contracted axis (t mod 8 = 7), and
  there it writes the clamped accumulator: by the accumulation, entry (r, s) of that block is the clamped full row
  product at row 2048·(t / 32) + r and column 1024·(t / 8 mod 4) + s — which is entry (r, s) of block (t / 32, t / 8 mod 4)
  of ONE function of the two quantized arrays, `result`. Every entry (b, o) of the 8192 × 4096 result lies in the block
  of the flushing point 32·(b / 2048) + 8·(o / 1024) + 7, so the array ends holding `result`.
-/
import proofs.«109858_j17927193493941_2_alg».proof.Proof.Accumulate

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.FakeQuantMatmul Cert.KernelIdeal.Blocks Cert.KernelIdeal.Accumulate

variable (m : (ℓ : Loc nD τ sig) → Buf (Elt Ideal) ℓ) (ρ : Dev nD → PrngReg)

/-- At the last point of a run the output block's entry is the clamped full row product. -/
theorem out_entry (c : Dev nD) (t : Fin cfg0.N) (h7 : t.val % 8 = 7) (j : S2048x1024.Idx) :
    (outsAt0 m c t.val t.isLt).1 j
      = clamp06 (rowDot (X m c) (Y m c) (2048 * (t.val / 32) + (j 0).val) (1024 * (t.val / 8 % 4) + (j 1).val)) := by
  have h0 : ¬t.val % 8 = 0 := by omega
  have hout : (outsAt0 m c t.val t.isLt).1 = k0_pay3 ((outsAt0 m c t.val t.isLt).2) := by
    rw [outsAt0_C m c t h0 h7]
    dsimp only
    rw [Pieces.out_last, Pieces.acc_last]
  rw [hout, PayloadAt.clamp_apply]
  obtain ⟨r, s, rfl⟩ : ∃ (r : Fin 2048) (s : Fin 1024), j = ix2 r s := ⟨j 0, j 1, eq_ix2 j⟩
  rw [acc_last_apply m c t h7 r s]

/-- WHAT A FLUSHING POINT WRITES BACK is its block of `result`. -/
theorem flushed_eq (c : Dev nD) (t : Fin cfg0.N) (hf : (cfg0.win 2).flush t = true) :
    (dats m 0 c).flushed 2 t = ((cfg0.win 2).blk t).view.read (Elt Ideal) (result (X m c) (Y m c)) := by
  have h7 : t.val % 8 = 7 := (flush0_2 t).mp hf
  obtain ⟨-, -, -, -, e0, e1⟩ := index_facts t
  rw [Value.flushed2]
  funext j
  show (outsAt0 m c t.val t.isLt).1 j = result (X m c) (Y m c) (((cfg0.win 2).blk t).view.emb j)
  refine (out_entry m c t h7 j).trans ?_
  show _ = clamp06 (rowDot (X m c) (Y m c) (win0_2.index t (0 : Fin 2) * 2048 + 1 * (j 0).val)
    (win0_2.index t (1 : Fin 2) * 1024 + 1 * (j 1).val))
  have a0 : win0_2.index t (0 : Fin 2) * 2048 + 1 * (j 0).val = 2048 * (t.val / 32) + (j 0).val := by omega
  have a1 : win0_2.index t (1 : Fin 2) * 1024 + 1 * (j 1).val = 1024 * (t.val / 8 % 4) + (j 1).val := by omega
  rw [a0, a1]

/-- Every entry of the result lies in the block of a flushing point. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hlt : 32 * ((i 0).val / 2048) + 8 * ((i 1).val / 1024) + 7 < cfg0.N :=
    lt_of_lt_of_eq (by omega : _ < 128) (show cfg0.N = 128 from N_0).symm
  obtain ⟨-, -, -, -, e0, e1⟩ := index_facts ⟨_, hlt⟩
  have e0' : win0_2.index ⟨_, hlt⟩ (0 : Fin 2) = (32 * ((i 0).val / 2048) + 8 * ((i 1).val / 1024) + 7) / 32 := e0
  have e1' : win0_2.index ⟨_, hlt⟩ (1 : Fin 2) = (32 * ((i 0).val / 2048) + 8 * ((i 1).val / 1024) + 7) / 8 % 4 := e1
  refine ⟨⟨_, hlt⟩, (flush0_2 _).mpr (by show (32 * ((i 0).val / 2048) + 8 * ((i 1).val / 1024) + 7) % 8 = 7; omega), ?_⟩
  show i ∈ ((View.whole main_v28).slice (win0_2.rect ⟨_, hlt⟩)).set
  rw [View.set_slice_whole, Rect.mem_set_unit]
  intro a
  match a with
  | ⟨0, _⟩ =>
    show win0_2.index ⟨_, hlt⟩ (0 : Fin 2) * 2048 ≤ (i 0).val ∧ (i 0).val < win0_2.index ⟨_, hlt⟩ (0 : Fin 2) * 2048 + 2048
    rw [e0']; omega
  | ⟨1, _⟩ =>
    show win0_2.index ⟨_, hlt⟩ (1 : Fin 2) * 1024 ≤ (i 1).val ∧ (i 1).val < win0_2.index ⟨_, hlt⟩ (1 : Fin 2) * 1024 + 1024
    rw [e1']; omega

/-- THE RESULT ARRAY after the run is `result` of the two quantized arrays. -/
theorem final (c : Dev nD) : (dats m 0 c).arrAt 2 cfg0.N = result (X m c) (Y m c) :=
  (dats m 0 c).arrAt_eq_of_cover 2 (result (X m c) (Y m c)) (fun t hf => flushed_eq m c t hf) (fun i => covered i)

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v28) = result (X m c) (Y m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelRun

end
-- ==== Proof.ReferenceValue.lean ====
/-
  The reference's result, as the same function of the same two quantized arrays.

  The reference quantizes each input `a` to `q` (the same host arithmetic as the kernel's wrapper), forms
  `a + (q - a)` — a straight-through estimator, whose forward value is `q` —, multiplies the two arrays along their
  second axes in one product over all 4096 positions, and clamps to [0, 6]. When every entry of the two inputs is a
  real number, `a + (q - a)` is `q` entry by entry (`real_add_sub_cancel`: whatever `q` is), so the reference's result
  is `result` of the two quantized arrays.
-/
import proofs.«109858_j17927193493941_2_alg».proof.Proof.Gen.ReferenceIdeal.Read
import proofs.«109858_j17927193493941_2_alg».proof.Proof.Spec

noncomputable section

open scoped BigOperators

namespace Cert.ReferenceIdeal.RefValue

open Cert.ReferenceIdeal Cert.ReferenceIdeal.Gen Cert.ReferenceIdeal.Read Idealize.ShloMosaic
open Idealize.ShloMosaic.ValueIdx Cert.FakeQuantMatmul

/-- The quantized activations, as the reference's host operations compute them from `x`. -/
abbrev quantX (x0 : SA.Idx → EReal) : SA.Idx → EReal := val_main_v12 (F := Ideal) x0
/-- The quantized weights, as the reference's host operations compute them from `W`. -/
abbrev quantW (x1 : SW.Idx → EReal) : SW.Idx → EReal := val_main_v27 (F := Ideal) x1

/-- The product reads its left operand at (result row, k) -/
theorem lidx_eq (b : Fin 8192) (o : Fin 4096) (k : Fin 4096) : lidx_main_v30 (ix2 b o) k = ix2 b k :=
  funext fun a => by match a with | ⟨0, _⟩ => rfl | ⟨1, _⟩ => rfl
/-- and its right operand at (result column, k). -/
theorem ridx_eq (b : Fin 8192) (o : Fin 4096) (k : Fin 4096) : ridx_main_v30 (ix2 b o) k = ix2 o k :=
  funext fun a => by match a with | ⟨0, _⟩ => rfl | ⟨1, _⟩ => rfl

/-- The straight-through form `x + (q - x)` of real activations is the quantized array `q`. -/
theorem ste_x (x0 : SA.Idx → EReal) (h0 : ∀ j, ∃ a : ℝ, x0 j = (a : EReal)) :
    val_main_v14 (F := Ideal) x0 = quantX x0 := by
  funext j
  obtain ⟨a, ha⟩ := h0 j
  rw [val_main_v14_apply, val_main_v13_apply]
  simp only [Ideal.addf_def, Ideal.subf_def]
  rw [ha]
  exact real_add_sub_cancel a _

/-- The straight-through form `W + (q - W)` of real weights is the quantized array `q`. -/
theorem ste_w (x1 : SW.Idx → EReal) (h1 : ∀ j, ∃ b : ℝ, x1 j = (b : EReal)) :
    val_main_v29 (F := Ideal) x1 = quantW x1 := by
  funext j
  obtain ⟨b, hb⟩ := h1 j
  rw [val_main_v29_apply, val_main_v28_apply]
  simp only [Ideal.addf_def, Ideal.subf_def]
  rw [hb]
  exact real_add_sub_cancel b _

/-- THE REFERENCE'S RESULT of inputs whose entries are all real numbers is `result` of the two quantized arrays. -/
theorem result_eq (x0 : SA.Idx → EReal) (x1 : SW.Idx → EReal)
    (h0 : ∀ j, ∃ a : ℝ, x0 j = (a : EReal)) (h1 : ∀ j, ∃ b : ℝ, x1 j = (b : EReal)) :
    val_main_v31 (F := Ideal) x0 x1 = result (quantX x0) (quantW x1) := by
  funext i
  obtain ⟨b, o, rfl⟩ : ∃ (b : Fin 8192) (o : Fin 4096), i = ix2 b o := ⟨i 0, i 1, eq_ix2 i⟩
  rw [val_main_v31_apply, val_main_call4_v2_apply, val_main_v30_apply, val_main_call4_v4_apply,
    val_main_call4_v3_apply, val_main_cst_12_apply, val_main_call4_v1_apply, val_main_call4_v0_apply,
    val_main_cst_11_apply, ste_x x0 h0, ste_w x1 h1]
  show min (Ideal.ofBits .f32 0x40C00000#32) (max (Ideal.ofBits .f32 0x00000000#32) _)
    = clamp06 (rowDot (quantX x0) (quantW x1) b.val o.val)
  unfold clamp06 rowDot
  refine congrArg _ (congrArg _ (Finset.sum_congr rfl fun k _ => ?_))
  rw [lidx_eq, ridx_eq, ent_of_lt, ent_of_lt]

end Cert.ReferenceIdeal.RefValue

end
-- ==== Proof.HostPrefix.lean ====
/-
  The kernel's wrapper quantizes exactly as the reference does.

  Before its launch the kernel's @main computes, by host operations, the quantized activations and weights and
  converts them to bf16 — a change of format, which over the extended reals is the identity. Operation by operation
  the host arithmetic is the reference's: the maximum of the absolute values, the quotient, the clip to [-1, 1], the
  scaling by 127, the rounding to the nearest even integer, the division by 127, the scaling back. So the arrays the
  kernel's launch finds are the reference's quantized arrays of the same inputs.

  The wrapper is nine stretches of host operations (its own lines, and the bodies of the clip and round functions it
  calls). What a buffer holds after all of them is read stretch by stretch, last first: each stretch's operations over
  whatever the stretches before it left.
-/
import proofs.«109858_j17927193493941_2_alg».proof.Proof.Gen.KernelIdeal.Frame
import proofs.«109858_j17927193493941_2_alg».proof.Proof.Blocks
import proofs.«109858_j17927193493941_2_alg».proof.Proof.ReferenceValue
import Idealize.ShloMosaic.Lib.StableHlo.Run

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.StableHlo Cert.FakeQuantMatmul

section AnyInstance

variable {F : FTy → Type} [FloatOps F] (m : (ℓ : Loc nD τ sig) → Buf (Elt F) ℓ)

/-- Operations run one list after another are run as their concatenation. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- What the launch finds, stretch after stretch of the wrapper's host operations. -/
theorem V_stages (c : Dev nD) (b : Ref sig .tc) :
    V m c b = after hostOps0_8 (after hostOps0_7 (after hostOps0_6 (after hostOps0_5 (after hostOps0_4
      (after hostOps0_3 (after hostOps0_2 (after hostOps0_1 (after hostOps0 (fun b => m (c, b)))))))))) (Proc.devRef .tc b) := by
  show after (List.flatten [hostOps0, hostOps0_1, hostOps0_2, hostOps0_3, hostOps0_4, hostOps0_5, hostOps0_6, hostOps0_7, hostOps0_8]) (fun b => m (c, b)) (Proc.devRef .tc b) = _
  simp only [List.flatten_cons, List.flatten_nil, List.append_nil, after_append]

/-- The wrapper's quantization of the activations, as one term of the host operations: with α = 1 · max |v| over the whole array,
    round (min 1 (max (-1) (v / α)) · 127) / 127 · α, entry by entry (every constant broadcast from a scalar). -/
noncomputable def quantizeX (a : FVec F S8192x4096 .f32) : FVec F S8192x4096 .f32 :=
  mulf
    (Host.divf
      (Host.roundeven
        (mulf
          (minimumf (broadcastInDim S8192x4096 ![] Gen.bcast_S_S8192x4096 (id (constant S_ .f32 0x3F800000#32)))
            (maximumf (broadcastInDim S8192x4096 ![] Gen.bcast_S_S8192x4096 (id (constant S_ .f32 0xBF800000#32)))
              (Host.divf a
                (broadcastInDim S8192x4096 ![] Gen.bcast_S_S8192x4096
                  (mulf (constant S_ .f32 0x3F800000#32)
                    (Host.reduce FloatOps.maximumf (Host.absf a) (constant S_ .f32 0xFF800000#32) Gen.reducesTo_S8192x4096_S_d0_1 Gen.h_S_))))))
          (broadcastInDim S8192x4096 ![] Gen.bcast_S_S8192x4096 (constant S_ .f32 0x42FE0000#32))))
      (broadcastInDim S8192x4096 ![] Gen.bcast_S_S8192x4096 (constant S_ .f32 0x42FE0000#32)))
    (broadcastInDim S8192x4096 ![] Gen.bcast_S_S8192x4096
      (mulf (constant S_ .f32 0x3F800000#32)
        (Host.reduce FloatOps.maximumf (Host.absf a) (constant S_ .f32 0xFF800000#32) Gen.reducesTo_S8192x4096_S_d0_1 Gen.h_S_)))

/-- The wrapper's quantization of the weights, as one term of the host operations: with α = 1 · max |v| over the whole array,
    round (min 1 (max (-1) (v / α)) · 127) / 127 · α, entry by entry (every constant broadcast from a scalar). -/
noncomputable def quantizeW (a : FVec F S4096x4096 .f32) : FVec F S4096x4096 .f32 :=
  mulf
    (Host.divf
      (Host.roundeven
        (mulf
          (minimumf (broadcastInDim S4096x4096 ![] Gen.bcast_S_S4096x4096 (id (constant S_ .f32 0x3F800000#32)))
            (maximumf (broadcastInDim S4096x4096 ![] Gen.bcast_S_S4096x4096 (id (constant S_ .f32 0xBF800000#32)))
              (Host.divf a
                (broadcastInDim S4096x4096 ![] Gen.bcast_S_S4096x4096
                  (mulf (constant S_ .f32 0x3F800000#32)
                    (Host.reduce FloatOps.maximumf (Host.absf a) (constant S_ .f32 0xFF800000#32) Gen.reducesTo_S4096x4096_S_d0_1 Gen.h_S_))))))
          (broadcastInDim S4096x4096 ![] Gen.bcast_S_S4096x4096 (constant S_ .f32 0x42FE0000#32))))
      (broadcastInDim S4096x4096 ![] Gen.bcast_S_S4096x4096 (constant S_ .f32 0x42FE0000#32)))
    (broadcastInDim S4096x4096 ![] Gen.bcast_S_S4096x4096
      (mulf (constant S_ .f32 0x3F800000#32)
        (Host.reduce FloatOps.maximumf (Host.absf a) (constant S_ .f32 0xFF800000#32) Gen.reducesTo_S4096x4096_S_d0_1 Gen.h_S_)))

/-- The activations the launch finds: the wrapper's quantization of `x`, converted to bf16 (for every float instance). -/
theorem X_wrapper (c : Dev nD) :
    V m c main_v26 = truncf .bf16 (quantizeX (m (c, Proc.devRef .tc main_arg0))) Gen.bitsLt_bf16_f32 := by
  rw [V_stages m c main_v26]
  generalize h7 : after (hostOps0_7 (F := F)) _ = W7
  simp only [hostOps0_8]
  after_results_simp
  subst h7
  generalize h6 : after (hostOps0_6 (F := F)) _ = W6
  simp only [hostOps0_7]
  after_results_simp
  subst h6
  generalize h5 : after (hostOps0_5 (F := F)) _ = W5
  simp only [hostOps0_6]
  after_results_simp
  subst h5
  generalize h4 : after (hostOps0_4 (F := F)) _ = W4
  simp only [hostOps0_5]
  after_results_simp
  subst h4
  generalize h3 : after (hostOps0_3 (F := F)) _ = W3
  simp only [hostOps0_4]
  after_results_simp
  subst h3
  generalize h2 : after (hostOps0_2 (F := F)) _ = W2
  simp only [hostOps0_3]
  after_results_simp
  subst h2
  generalize h1 : after (hostOps0_1 (F := F)) _ = W1
  simp only [hostOps0_2]
  after_results_simp
  subst h1
  generalize h0 : after (hostOps0 (F := F)) _ = W0
  simp only [hostOps0_1]
  after_results_simp
  subst h0
  simp only [hostOps0]
  after_results_simp
  rfl

/-- The weights the launch finds: the wrapper's quantization of `W`, converted to bf16 (for every float instance). -/
theorem Y_wrapper (c : Dev nD) :
    V m c main_v27 = truncf .bf16 (quantizeW (m (c, Proc.devRef .tc main_arg1))) Gen.bitsLt_bf16_f32 := by
  rw [V_stages m c main_v27]
  generalize h7 : after (hostOps0_7 (F := F)) _ = W7
  simp only [hostOps0_8]
  after_results_simp
  subst h7
  generalize h6 : after (hostOps0_6 (F := F)) _ = W6
  simp only [hostOps0_7]
  after_results_simp
  subst h6
  generalize h5 : after (hostOps0_5 (F := F)) _ = W5
  simp only [hostOps0_6]
  after_results_simp
  subst h5
  generalize h4 : after (hostOps0_4 (F := F)) _ = W4
  simp only [hostOps0_5]
  after_results_simp
  subst h4
  generalize h3 : after (hostOps0_3 (F := F)) _ = W3
  simp only [hostOps0_4]
  after_results_simp
  subst h3
  generalize h2 : after (hostOps0_2 (F := F)) _ = W2
  simp only [hostOps0_3]
  after_results_simp
  subst h2
  generalize h1 : after (hostOps0_1 (F := F)) _ = W1
  simp only [hostOps0_2]
  after_results_simp
  subst h1
  generalize h0 : after (hostOps0 (F := F)) _ = W0
  simp only [hostOps0_1]
  after_results_simp
  subst h0
  simp only [hostOps0]
  after_results_simp
  rfl

open Cert.ReferenceIdeal.Read in
/-- The wrapper's quantization of the activations is the reference's: unfolded, the two are the same term. -/
theorem quantizeX_eq (a : FVec F S8192x4096 .f32) : quantizeX a = val_main_v12 (F := F) a := by
  unfold quantizeX val_main_v12 val_main_v10 val_main_v11 val_main_v9 val_main_v8 val_main_v7
    val_main_v6 val_main_v5 val_main_call0_v4 val_main_call0_v3 val_main_call0_v2 val_main_call0_v1 val_main_call0_v0
    val_main_v4 val_main_v3 val_main_v2 val_main_v1 val_main_v0 val_main_cst val_main_cst_0 val_main_cst_1 val_main_cst_2
    val_main_cst_3 val_main_cst_4
  rfl

open Cert.ReferenceIdeal.Read in
/-- The wrapper's quantization of the weights is the reference's: unfolded, the two are the same term. -/
theorem quantizeW_eq (b : FVec F S4096x4096 .f32) : quantizeW b = val_main_v27 (F := F) b := by
  unfold quantizeW val_main_v27 val_main_v25 val_main_v26 val_main_v24 val_main_v23 val_main_v22
    val_main_v21 val_main_v20 val_main_call2_v4 val_main_call2_v3 val_main_call2_v2 val_main_call2_v1 val_main_call2_v0
    val_main_v19 val_main_v18 val_main_v17 val_main_v16 val_main_v15 val_main_cst_5 val_main_cst_6 val_main_cst_7 val_main_cst_8
    val_main_cst_9 val_main_cst_10
  rfl

end AnyInstance

/-- A change of float format of a whole array is the identity over the extended reals. -/
theorem truncf_whole {s : Shape} {φ ψ : FTy} (v : FVec Ideal s φ) (h : ψ.bits < φ.bits) : (truncf ψ v h : FVec Ideal s ψ) = v := rfl

variable (m : (ℓ : Loc nD τ sig) → Buf (Elt Ideal) ℓ)

/-- The activations the launch finds are the reference's quantized activations of `x`. -/
theorem X_eq (c : Dev nD) :
    Blocks.X m c = Cert.ReferenceIdeal.RefValue.quantX (m ((c : Thread nD τ).loc main_arg0)) := by
  show V m c main_v26 = _
  rw [X_wrapper (F := Ideal) m c, truncf_whole, quantizeX_eq]

/-- The weights the launch finds are the reference's quantized weights of `W`. -/
theorem Y_eq (c : Dev nD) :
    Blocks.Y m c = Cert.ReferenceIdeal.RefValue.quantW (m ((c : Thread nD τ).loc main_arg1)) := by
  show V m c main_v27 = _
  rw [Y_wrapper (F := Ideal) m c, truncf_whole, quantizeW_eq]

end Cert.KernelIdeal.HostPrefix

end
-- ==== Proof.Finite.lean ====
/-
  From the precondition to real entries.

  The precondition says, of each input array, that every entry's absolute value is strictly below +∞ (the float word
  0x7F800000), all of these conjoined into one bit that is 1. An extended real whose absolute value max x (-x) is below
  +∞ is neither infinity: it is a real number.
-/
import proofs.«109858_j17927193493941_2_alg».proof.Pre_finite_inputs
import proofs.«109858_j17927193493941_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value compares strictly below the word of +∞ is a real number. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe a => exact ⟨a, rfl⟩

/-- THE PRECONDITION, READ: both inputs hold real numbers only. -/
theorem real_of_pre (a0 : FVec Ideal S8192x4096 .f32) (a1 : FVec Ideal S4096x4096 .f32)
    (h : Cert.Pre_finite_inputs.fn (F := Ideal) a0 a1 = fun _ => 1#1) :
    (∀ j, ∃ a : ℝ, a0 j = (a : EReal)) ∧ (∀ j, ∃ b : ℝ, a1 j = (b : EReal)) := by
  have h1 := congrFun h ix0
  dsimp only [Cert.Pre_finite_inputs.fn] at h1
  obtain ⟨hx, hw⟩ := IntOp.andi_eq_one.1 h1
  refine ⟨fun j => ?_, fun j => ?_⟩
  · have e := Host.reduce_andi_all _ _ _ _ ix0 hx j
    rw [cmpf_apply, broadcastInDim_apply _ _ _ j ix0 (fun a => a.elim0)] at e
    exact real_of_abs_lt_inf (a0 j) e
  · have e := Host.reduce_andi_all _ _ _ _ ix0 hw j
    rw [cmpf_apply, broadcastInDim_apply _ _ _ j ix0 (fun a => a.elim0)] at e
    exact real_of_abs_lt_inf (a1 j) e

end Cert.Pre_finite_inputs.Finite

end
-- ==== Proof.lean ====
/-
  A fake-quantized linear layer with a clamped ReLU: the kernel against its reference, over the extended reals.

  Both programs quantize the activations x (8192 × 4096) and the weights W (4096 × 4096) to 8 bits of dynamic range —
  q = round (clip (v / α, -1, 1) · 127) / 127 · α with α the largest absolute value in the array — by the same host
  arithmetic, multiply the quantized arrays along their second axes, and clamp the product to [0, 6]:

      out (b, o) = min 6 (max 0 (∑ k < 4096, X (b, k) · Y (o, k))).

  They differ in three ways, none of which changes this value:

  * the kernel converts the quantized arrays to bf16 before its matrix product — a change of float format, the
    identity over the extended reals (Proof/HostPrefix.lean);
  * the kernel computes the product on a 4 × 4 × 8 grid, summing the contracted axis in eight blocks of 512 into an
    accumulator that is reset at the first block and clamped into the result after the last; addition of extended
    reals is associative and commutative, so the eight partial sums are the one sum over 4096 (Proof/Spec.lean
    `sum_blocks`; Proof/Pieces.lean, Proof/PayloadAt.lean, Proof/Blocks.lean, Proof/Accumulate.lean and
    Proof/KernelRun.lean read the kernel's run down to that sum);
  * the reference passes its product the straight-through form v + (q - v) of each quantized array; for a real v this
    is q, whatever q is (Proof/Spec.lean `real_add_sub_cancel`, Proof/ReferenceValue.lean) — and it is here that the
    precondition, every input entry finite, is used (Proof/Finite.lean): at v = ±∞ the two sides differ.

  The three frames are the generated runs; the idealization rewrote nothing, so `preserves` is trivial.
-/
import proofs.«109858_j17927193493941_2_alg».proof.Defs
import proofs.«109858_j17927193493941_2_alg».proof.Proof.Gen.Kernel
import proofs.«109858_j17927193493941_2_alg».proof.Proof.Gen.Kernel.Skeleton
import proofs.«109858_j17927193493941_2_alg».proof.Proof.Gen.Kernel.Launch
import proofs.«109858_j17927193493941_2_alg».proof.Proof.Gen.Kernel.Points
import proofs.«109858_j17927193493941_2_alg».proof.Proof.Gen.Kernel.Frame
import proofs.«109858_j17927193493941_2_alg».proof.Proof.Gen.KernelIdeal
import proofs.«109858_j17927193493941_2_alg».proof.Proof.Gen.KernelIdeal.Skeleton
import proofs.«109858_j17927193493941_2_alg».proof.Proof.Gen.KernelIdeal.Launch
import proofs.«109858_j17927193493941_2_alg».proof.Proof.Gen.KernelIdeal.Points
import proofs.«109858_j17927193493941_2_alg».proof.Proof.Gen.KernelIdeal.Frame
import proofs.«109858_j17927193493941_2_alg».proof.Proof.Gen.ReferenceIdeal
import proofs.«109858_j17927193493941_2_alg».proof.Proof.Gen.KernelIdeal.Value
import proofs.«109858_j17927193493941_2_alg».proof.Proof.Gen.ReferenceIdeal.Run
import proofs.«109858_j17927193493941_2_alg».proof.Proof.Gen.ReferenceIdeal.Read
import proofs.«109858_j17927193493941_2_alg».proof.Proof.Gen.Pre_finite_inputs
import proofs.«109858_j17927193493941_2_alg».proof.Proof.KernelRun
import proofs.«109858_j17927193493941_2_alg».proof.Proof.HostPrefix
import proofs.«109858_j17927193493941_2_alg».proof.Proof.ReferenceValue
import proofs.«109858_j17927193493941_2_alg».proof.Proof.Finite
import Idealize.ShloMosaic.Adequacy
import Idealize.ShloMosaic.Init

noncomputable section

namespace Cert.Proof

open Idealize.ShloMosaic Idealize.ShloMosaic.TcCoe Idealize.SL.Sem Cert.FakeQuantMatmul

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From finite inputs that agree, both programs end with the clamped product of the two quantized arrays: the
    kernel's result array is `result` of the arrays its launch finds, which are the reference's quantized arrays; the
    reference's result is `result` of those, its straight-through forms cancelling on real entries. -/
theorem algebraic : Cert.algebraic_KernelIdeal_ReferenceIdeal := by
  intro m ρ m' ρ' hpre hagree
  refine ⟨fun c => result (Cert.KernelIdeal.Blocks.X m c) (Cert.KernelIdeal.Blocks.Y m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Finite.real_of_pre _ _ (hpre c)
  rw [Cert.ReferenceIdeal.Read.val_main_v31_eq, (hagree c).1, (hagree c).2,
    Cert.ReferenceIdeal.RefValue.result_eq _ _ hx hw]
  show _ = result (Cert.KernelIdeal.Blocks.X m c) (Cert.KernelIdeal.Blocks.Y m c)
  rw [Cert.KernelIdeal.HostPrefix.X_eq, Cert.KernelIdeal.HostPrefix.Y_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
